-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S4096 : Shape := ⟨1, ![4096]⟩
abbrev S16777216 : Shape := ⟨1, ![16777216]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4096 : S_.BroadcastsInDim S4096 (![] : Fin 0 → Fin S4096.rank)
  reducesTo_S4096_S_d0 : S4096.ReducesTo [0] S_
  bcast_S_S16777216 : S_.BroadcastsInDim S16777216 (![] : Fin 0 → Fin S16777216.rank)
  reducesTo_S16777216_S_d0 : S16777216.ReducesTo [0] S_

variable [Facts]

def fn_part2 {F : FTy → Type} [FloatOps F] (main_arg7 : FVec F S16777216 .f32) (main_v33 : IVec S_ 1) : IVec S_ 1 :=
  let main_v34 : FVec F S16777216 .f32 := Host.absf main_arg7
  let main_cst_12 : FVec F S_ .f32 := constant S_ .f32 0x7F800000#32
  let main_v35 : FVec F S16777216 .f32 := broadcastInDim S16777216 ![] bcast_S_S16777216 main_cst_12
  let main_v36 : IVec S16777216 1 := cmpf .olt main_v34 main_v35
  let main_c_13 : IVec S_ 1 := constantI S_ 1 1#1
  let main_v37 : IVec S_ 1 := (fun x v => Host.reduce IntOp.andi x v reducesTo_S16777216_S_d0 h_S_) main_v36 main_c_13
  let main_v38 : IVec S_ 1 := andi main_v33 main_v37
  main_v38

def fn_part1 {F : FTy → Type} [FloatOps F] (main_arg4 : FVec F S16777216 .f32) (main_arg5 : FVec F S4096 .f32) (main_arg6 : FVec F S1 .f32) (main_arg7 : FVec F S16777216 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S16777216 .f32 := Host.absf main_arg4
  let main_cst_6 : FVec F S_ .f32 := constant S_ .f32 0x7F800000#32
  let main_v20 : FVec F S16777216 .f32 := broadcastInDim S16777216 ![] bcast_S_S16777216 main_cst_6
  let main_v21 : IVec S16777216 1 := cmpf .olt main_v19 main_v20
  let main_c_7 : IVec S_ 1 := constantI S_ 1 1#1
  let main_v22 : IVec S_ 1 := (fun x v => Host.reduce IntOp.andi x v reducesTo_S16777216_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S1 .f32) (main_arg1 : FVec F S4096 .f32) (main_arg2 : FVec F S4096 .f32) (main_arg3 : FVec F S4096 .f32) (main_arg4 : FVec F S16777216 .f32) (main_arg5 : FVec F S4096 .f32) (main_arg6 : FVec F S1 .f32) (main_arg7 : FVec F S16777216 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1 : Shape := ⟨1, ![1]⟩
abbrev S4096 : Shape := ⟨1, ![4096]⟩
abbrev S16777216 : Shape := ⟨1, ![16777216]⟩
abbrev S4096x4096 : Shape := ⟨2, ![4096, 4096]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16777216, .f32⟩
  | .hbm, ⟨5, _⟩ => ⟨S4096, .f32⟩
  | .hbm, ⟨6, _⟩ => ⟨S1, .f32⟩
  | .hbm, ⟨7, _⟩ => ⟨S16777216, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | .hbm, ⟨12, _⟩ => ⟨S4096x4096, .f32⟩
  | .hbm, ⟨13, _⟩ => ⟨S16777216, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16777216_S4096x4096 : S16777216.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S16777216 : S4096x4096.ShapeCasts S16777216
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1 : Shape := ⟨1, ![1]⟩
abbrev S4096 : Shape := ⟨1, ![4096]⟩
abbrev S16777216 : Shape := ⟨1, ![16777216]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S1, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S16777216, .f32⟩
  | .hbm, ⟨5, _⟩ => ⟨S4096, .f32⟩
  | .hbm, ⟨6, _⟩ => ⟨S1, .f32⟩
  | .hbm, ⟨7, _⟩ => ⟨S16777216, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S16777216, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]

class Facts₀ : Prop where
  shapeCasts_S16777216_S4096x4096 : S16777216.ShapeCasts S4096x4096
  shapeCasts_S4096x4096_S16777216 : S4096x4096.ShapeCasts S16777216
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
import proofs.«104821_j16303695855981_2_alg».proof.Proof.Gen.KernelIdeal.Frame
import Idealize.ShloMosaic.Lib.Pipeline.Value

/-!
# What one grid step leaves in the accumulator and in the output block

Every store of the body writes a whole 1024 × 1024 buffer, so what a buffer holds after a step is the value of the last
store into it, and every load reads a whole buffer. At a first step along the contraction axis the accumulator is set to
zero and then receives the step's value computed from that zero; at a later step it receives the step's value computed
from what it held; at a last step the output block is, in addition, a copy of the accumulator. The step's value is the
pure term `k0_pay2` of the accumulator's contents and the two input blocks.
-/

set_option maxRecDepth 16384

noncomputable section

namespace Cert.KernelIdeal.Pieces

open Cert.KernelIdeal Cert.KernelIdeal.Gen Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- A first step: the accumulator ends at the step's value computed from the zero block. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A later step that is not the last: the accumulator ends at the step's value computed from what it held. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S1024x1024) hz]

/-- A last step: the accumulator ends at the step's value computed from what it held, -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1024x1024) hz]

/-- and the output block at the same value. -/
theorem output_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x1024) hz]

end Cert.KernelIdeal.Pieces

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.MatProduct.lean ====
import Idealize.ShloMosaic.PureOps.Ideal.Laws
import Idealize.ShloMosaic.Lib.ValueIdx
import proofs.«104821_j16303695855981_2_alg».proof.Proof.LibBlockSums

/-!
# The product of two 4096 × 4096 matrices over the extended reals

Entry `(r, s)` of `A · B` is the sum over `κ < 4096` of `A (r, κ) · B (κ, s)`. The same entry can be accumulated
in four steps, each adding the 1024 terms of one block of `κ` to an accumulator that starts at zero:
`(((0 + Σ₀) + Σ₁) + Σ₂) + Σ₃`. Addition of extended reals is commutative and associative, so after the fourth
step the accumulator holds the whole sum; no entry has to be finite for that.
-/

noncomputable section

namespace Cert.MatProduct

open Idealize.ShloMosaic Idealize.ShloMosaic.ValueIdx
open scoped BigOperators

/-- The square shape of both factors and of the product. -/
abbrev Sq : Shape := ⟨2, ![4096, 4096]⟩

/-- The flat shape the arguments arrive in and the result leaves in. -/
abbrev Flat : Shape := ⟨1, ![16777216]⟩

/-- Term `κ` of entry `(r, s)` of the product: `A (r, κ) · B (κ, s)`. -/
def term (A B : Sq.Idx → EReal) (r s κ : Fin 4096) : EReal := A (ix2 r κ) * B (ix2 κ s)

/-- The product `A · B`, entry by entry. -/
def matProd (A B : Sq.Idx → EReal) : Sq.Idx → EReal := fun i => ∑ κ : Fin 4096, term A B (i 0) (i 1) κ

theorem matProd_ix2 (A B : Sq.Idx → EReal) (r s : Fin 4096) :
    matProd A B (ix2 r s) = ∑ κ : Fin 4096, A (ix2 r κ) * B (ix2 κ s) := rfl

/-- Entry `(r, s)` as the accumulator holds it after block `k` of `κ`: zero, then one block of 1024 terms at a time. -/
def partialEntry (A B : Sq.Idx → EReal) (r s : Fin 4096) (k : ℕ) : EReal :=
  BlockSums.runSum 1024 (term A B r s) k

/-- After the first block: zero plus the first 1024 terms. -/
theorem partialEntry_zero (A B : Sq.Idx → EReal) (r s : Fin 4096) :
    partialEntry A B r s 0
      = 0 + ∑ j : Fin 1024, term A B r s ⟨j.val + 1024 * 0, by have := j.isLt; omega⟩ := by
  unfold partialEntry
  rw [BlockSums.runSum_zero, BlockSums.blockSum_eq 1024 (term A B r s) 0 (by omega)]

/-- After a later block: what the accumulator held, plus that block's 1024 terms. -/
theorem partialEntry_succ (A B : Sq.Idx → EReal) (r s : Fin 4096) (k : ℕ) (hk : k + 1 < 4) :
    partialEntry A B r s (k + 1)
      = partialEntry A B r s k
        + ∑ j : Fin 1024, term A B r s ⟨j.val + 1024 * (k + 1), by have := j.isLt; omega⟩ := by
  unfold partialEntry
  rw [BlockSums.runSum_succ, BlockSums.blockSum_eq 1024 (term A B r s) (k + 1) (by omega)]

/-- After the fourth block the accumulator holds the product's entry. -/
theorem partialEntry_last (A B : Sq.Idx → EReal) (r s : Fin 4096) :
    partialEntry A B r s 3 = matProd A B (ix2 r s) :=
  BlockSums.runSum_4x1024 (term A B r s)

/-- What both programs return: the two flat arguments read as 4096 × 4096 matrices row by row, multiplied, and the
    product laid out flat again row by row. -/
def flatProd (h1 : Flat.ShapeCasts Sq) (h2 : Sq.ShapeCasts Flat) (xJ xE : Flat.Idx → EReal) : Flat.Idx → EReal :=
  shapeCast Flat (matProd (shapeCast Sq xJ h1) (shapeCast Sq xE h1)) h2

end Cert.MatProduct

end
-- ==== Proof.PayloadEntry.lean ====
import proofs.«104821_j16303695855981_2_alg».proof.Proof.Gen.KernelIdeal.Skeleton
import proofs.«104821_j16303695855981_2_alg».proof.Proof.LibPlainMatmul
import proofs.«104821_j16303695855981_2_alg».proof.Proof.MatProduct
import Idealize.ShloMosaic.Lib.Pipeline.Value

/-!
# One step's arithmetic at an entry, over the extended reals

The value a step stores into the accumulator is, at entry `(p, q)` of the 1024 × 1024 block, what the accumulator held
there plus the sum over `j < 1024` of `x0 (p, j) · x1 (j, q)`: the block product into a zero accumulator is the textbook
sum, and the changes of shape around it are the identity. The value the first step stores beforehand is zero everywhere.
-/

noncomputable section

namespace Cert.KernelIdeal.PayloadEntry

open Cert.KernelIdeal Cert.KernelIdeal.Gen Idealize.ShloMosaic Idealize.ShloMosaic.ValueIdx
open scoped BigOperators

/-! The block product contracts the left block's columns against the right block's rows: the four coordinate facts
    about its operand indices. -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- What the accumulator held plus the block product, at an entry. -/
theorem sum_entry (xs : FVec Ideal S1024x1024 .f32) (l r : FVec Ideal S1024x1024 .bf16) (p q : Fin 1024) :
    addf xs (matmul dot_S1024x1024_S1024x1024_S1024x1024_1_0_0_1_n_n none l r (constant S1024x1024 .f32 0x00000000#32)) (ix2 p q)
      = xs (ix2 p q) + ∑ j : Fin 1024, l (ix2 p j) * r (ix2 j q) :=
  congrArg (xs (ix2 p q) + ·)
    (Cert.LibPlainMatmul.matmul_zero_ix2 dot_S1024x1024_S1024x1024_S1024x1024_1_0_0_1_n_n none rfl rfl
      lhs_row lhs_col rhs_row rhs_col l r p q)

/-- The step's stored value at an entry. -/
theorem step_entry (xs : Vec Ideal S1024x1024 .f32) (x0 x1 : Vec Ideal S1024x1024 .bf16) (p q : Fin 1024) :
    k0_pay2 (F := Ideal) xs x0 x1 (ix2 p q) = xs (ix2 p q) + ∑ j : Fin 1024, x0 (ix2 p j) * x1 (ix2 j q) := by
  unfold k0_pay2
  simp only [shapeCast_self]
  exact sum_entry xs x0 x1 p q

/-- The value the first step stores beforehand is zero at every entry. -/
theorem reset_entry (p q : Fin 1024) : k0_pay1 (F := Ideal) (ix2 p q) = 0 := by
  unfold k0_pay1
  simp only [shapeCast_self]
  exact Ideal.ofBits_zero_f32

end Cert.KernelIdeal.PayloadEntry

end
-- ==== Proof.Blocks.lean ====
import proofs.«104821_j16303695855981_2_alg».proof.Proof.Gen.KernelIdeal.Frame
import proofs.«104821_j16303695855981_2_alg».proof.Proof.MatProduct
import Idealize.ShloMosaic.Lib.ValueIdx
import Idealize.ShloMosaic.Lib.Pipeline.Value

/-!
# The blocks a grid step reads, and the two matrices they are blocks of

Grid point `n < 64` is `(a, b, k)` with `n = 16 a + 4 b + k`. The first input window stages block `(a, k)` of the
matrix `J` (the first factor as the region finds it), the second block `(k, b)` of `E`, the output window block
`(a, b)`; a block is 1024 × 1024, so entry `(p, j)` of block `(a, k)` is entry `(1024 a + p, 1024 k + j)` of the matrix.
`J` and `E` are the two flat arguments read row by row as 4096 × 4096 matrices: the change of float format between is
the identity over the extended reals.
-/

set_option maxRecDepth 16384

noncomputable section

namespace Cert.KernelIdeal.Blocks

open Cert.KernelIdeal Cert.KernelIdeal.Gen Idealize.ShloMosaic Idealize.ShloMosaic.TcCoe Idealize.ShloMosaic.ValueIdx
open Cert.MatProduct

variable (m : (ℓ : Loc nD τ sig) → Buf (Elt Ideal) ℓ)

/-- Row `1024 a + p` of the matrix, for the point `n = 16 a + 4 b + k`. -/
def rowOf (n : ℕ) (p : Fin 1024) : Fin 4096 := ⟨(1024 * (n / 16) + p.val) % 4096, Nat.mod_lt _ (by decide)⟩

/-- Column `1024 b + q` of the matrix, for the point `n = 16 a + 4 b + k`. -/
def colOf (n : ℕ) (q : Fin 1024) : Fin 4096 := ⟨(1024 * (n / 4 % 4) + q.val) % 4096, Nat.mod_lt _ (by decide)⟩

/-- The first factor as the region finds it. -/
def matJ (c : Dev nD) : Sq.Idx → EReal := V m c main_v2

/-- The second factor as the region finds it. -/
def matE (c : Dev nD) : Sq.Idx → EReal := V m c main_v3

/-- The windows' block indices at point `n = 16 a + 4 b + k`: `(a, k)`, `(k, b)`, `(a, b)` — decided over the 64 points. -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Entry `(p, j)` of the first window's block at point `t` is entry `(1024 a + p, 1024 k + j)` of `J`. -/
theorem left_block_entry (c : Dev nD) (t : Fin cfg0.N) (p j : Fin 1024) (hj : j.val + 1024 * (t.val % 4) < 4096) :
    (iblk m c 0 t : Vec Ideal S1024x1024 .bf16) (ix2 p j) = matJ m c (ix2 (rowOf t.val p) ⟨j.val + 1024 * (t.val % 4), hj⟩) := by
  have hN : t.val < 64 := lt_of_lt_of_eq t.isLt (show cfg0.N = 64 from N_0)
  obtain ⟨e0, e1, -, -, -, -⟩ := block_indices t
  unfold iblk matJ
  rw [View.read_apply]
  show V m c main_v2 _ = V m c main_v2 _
  congr 1
  funext a
  apply Fin.ext
  match a with
  | ⟨0, _⟩ => show win0_0.index t (0 : Fin 2) * 1024 + 1 * p.val = (1024 * (t.val / 16) + p.val) % 4096; have := p.isLt; omega
  | ⟨1, _⟩ => show win0_0.index t (1 : Fin 2) * 1024 + 1 * j.val = j.val + 1024 * (t.val % 4); omega

/-- Entry `(j, q)` of the second window's block at point `t` is entry `(1024 k + j, 1024 b + q)` of `E`. -/
theorem right_block_entry (c : Dev nD) (t : Fin cfg0.N) (j q : Fin 1024) (hj : j.val + 1024 * (t.val % 4) < 4096) :
    (iblk m c 1 t : Vec Ideal S1024x1024 .bf16) (ix2 j q) = matE m c (ix2 ⟨j.val + 1024 * (t.val % 4), hj⟩ (colOf t.val q)) := by
  have hN : t.val < 64 := lt_of_lt_of_eq t.isLt (show cfg0.N = 64 from N_0)
  obtain ⟨-, -, e0, e1, -, -⟩ := block_indices t
  unfold iblk matE
  rw [View.read_apply]
  show V m c main_v3 _ = V m c main_v3 _
  congr 1
  funext a
  apply Fin.ext
  match a with
  | ⟨0, _⟩ => show win0_1.index t (0 : Fin 2) * 1024 + 1 * j.val = j.val + 1024 * (t.val % 4); omega
  | ⟨1, _⟩ => show win0_1.index t (1 : Fin 2) * 1024 + 1 * q.val = (1024 * (t.val / 4 % 4) + q.val) % 4096; have := q.isLt; omega

/-- `J` is the last argument read row by row as a matrix. -/
theorem matJ_eq (c : Dev nD) :
    matJ m c = shapeCast Sq (m ((c : Thread nD τ).loc main_arg7) : Flat.Idx → EReal) Facts₀.shapeCasts_S16777216_S4096x4096 := by
  unfold matJ
  show StableHlo.after hostOps0 (fun b => m (c, b)) (Proc.devRef .tc main_v2) = _
  after_results
  rfl

/-- `E` is the fifth argument read row by row as a matrix. -/
theorem matE_eq (c : Dev nD) :
    matE m c = shapeCast Sq (m ((c : Thread nD τ).loc main_arg4) : Flat.Idx → EReal) Facts₀.shapeCasts_S16777216_S4096x4096 := by
  unfold matE
  show StableHlo.after hostOps0 (fun b => m (c, b)) (Proc.devRef .tc main_v3) = _
  after_results
  rfl

end Cert.KernelIdeal.Blocks

end
-- ==== Proof.Accumulation.lean ====
import proofs.«104821_j16303695855981_2_alg».proof.Proof.Pieces
import proofs.«104821_j16303695855981_2_alg».proof.Proof.PayloadEntry
import proofs.«104821_j16303695855981_2_alg».proof.Proof.Blocks

/-!
# The accumulator after each grid point, and the output block after a last step

Grid point `n = 16 a + 4 b + k` works on entry block `(a, b)` of the product and on block `k` of the contraction index.
By induction on `n`: after point `n` the accumulator's entry `(p, q)` is the partial sum of entry
`(1024 a + p, 1024 b + q)` of `J · E` over the contraction blocks `0, …, k`, accumulated from zero one block at a time.
At `k = 0` the accumulator was reset, so only the first block is in it; at `k > 0` the point before was `(a, b, k - 1)`
and left the partial sum over `0, …, k - 1`. At `k = 3` the output block receives a copy: the whole entry of the product.
-/

set_option maxRecDepth 16384

noncomputable section

namespace Cert.KernelIdeal.Accumulation

open Cert.KernelIdeal Cert.KernelIdeal.Gen Idealize.ShloMosaic Idealize.ShloMosaic.TcCoe Idealize.ShloMosaic.ValueIdx
open Cert.MatProduct Cert.KernelIdeal.Blocks
open scoped BigOperators

variable (m : (ℓ : Loc nD τ sig) → Buf (Elt Ideal) ℓ)

/-- A first step on blocks that are block `k = 0` of row `r` of `A` and of column `s` of `B` leaves the first partial sum. -/
theorem first_step (A B : Sq.Idx → EReal) (x0 x1 : Vec Ideal S1024x1024 .bf16) (r s : Fin 4096) (p q : Fin 1024)
    (k : ℕ) (hk : k = 0)
    (h0 : ∀ (j : Fin 1024) (hj : j.val + 1024 * k < 4096), x0 (ix2 p j) = A (ix2 r ⟨j.val + 1024 * k, hj⟩))
    (h1 : ∀ (j : Fin 1024) (hj : j.val + 1024 * k < 4096), x1 (ix2 j q) = B (ix2 ⟨j.val + 1024 * k, hj⟩ s)) :
    k0_pay2 (F := Ideal) (k0_pay1 (F := Ideal)) x0 x1 (ix2 p q) = partialEntry A B r s k := by
  subst hk
  rw [PayloadEntry.step_entry, PayloadEntry.reset_entry, partialEntry_zero]
  congr 1
  refine Finset.sum_congr rfl fun j _ => ?_
  unfold term
  rw [h0 j _, h1 j _]

/-- A later step on block `k + 1`, from an accumulator holding the partial sum up to block `k`, leaves the next one. -/
theorem next_step (A B : Sq.Idx → EReal) (xs : Vec Ideal S1024x1024 .f32) (x0 x1 : Vec Ideal S1024x1024 .bf16)
    (r s : Fin 4096) (p q : Fin 1024) (k : ℕ) (hk : k + 1 < 4) (hs : xs (ix2 p q) = partialEntry A B r s k)
    (k' : ℕ) (hk' : k' = k + 1)
    (h0 : ∀ (j : Fin 1024) (hj : j.val + 1024 * k' < 4096), x0 (ix2 p j) = A (ix2 r ⟨j.val + 1024 * k', hj⟩))
    (h1 : ∀ (j : Fin 1024) (hj : j.val + 1024 * k' < 4096), x1 (ix2 j q) = B (ix2 ⟨j.val + 1024 * k', hj⟩ s)) :
    k0_pay2 (F := Ideal) xs x0 x1 (ix2 p q) = partialEntry A B r s k' := by
  subst hk'
  rw [PayloadEntry.step_entry, hs, partialEntry_succ A B r s k hk]
  congr 1
  refine Finset.sum_congr rfl fun j _ => ?_
  unfold term
  rw [h0 j _, h1 j _]

/-- The accumulator after point `n`, entry by entry. -/
theorem accumulator_entry (c : Dev nD) : ∀ (n : ℕ) (h : n < cfg0.N) (p q : Fin 1024),
    (outsAt0 m c n h).2 (ix2 p q) = partialEntry (matJ m c) (matE m c) (rowOf n p) (colOf n q) (n % 4)
  | 0, h, p, q => by
    rw [outsAt0_A m c ⟨0, h⟩ rfl (by show ¬0 % 4 = 3; decide)]
    dsimp only
    refine (congrFun (Pieces.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)) (ix2 p q)).trans ?_
    exact first_step (matJ m c) (matE m c) (iblk m c 0 ⟨0, h⟩) (iblk m c 1 ⟨0, h⟩) (rowOf 0 p) (colOf 0 q) p q (0 % 4) rfl
      (fun j hj => left_block_entry m c ⟨0, h⟩ p j hj) (fun j hj => right_block_entry m c ⟨0, h⟩ j q hj)
  | n + 1, h, p, q => by
    have hN : n + 1 < 64 := lt_of_lt_of_eq h (show cfg0.N = 64 from N_0)
    by_cases h0 : (n + 1) % 4 = 0
    · have h1 : ¬(n + 1) % 4 = 3 := by omega
      rw [outsAt0_A m c ⟨n + 1, h⟩ h0 h1]
      dsimp only
      refine (congrFun (Pieces.scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)) (ix2 p q)).trans ?_
      exact first_step (matJ m c) (matE m c) (iblk m c 0 ⟨n + 1, h⟩) (iblk m c 1 ⟨n + 1, h⟩) (rowOf (n + 1) p) (colOf (n + 1) q) p q ((n + 1) % 4) h0
        (fun j hj => left_block_entry m c ⟨n + 1, h⟩ p j hj) (fun j hj => right_block_entry m c ⟨n + 1, h⟩ j q hj)
    · have ih := accumulator_entry c n (Nat.lt_of_succ_lt h) p q
      have er : rowOf n p = rowOf (n + 1) p := Fin.ext (by
        show (1024 * (n / 16) + p.val) % 4096 = (1024 * ((n + 1) / 16) + p.val) % 4096
        have : (n + 1) / 16 = n / 16 := by omega
        rw [this])
      have ec : colOf n q = colOf (n + 1) q := Fin.ext (by
        show (1024 * (n / 4 % 4) + q.val) % 4096 = (1024 * ((n + 1) / 4 % 4) + q.val) % 4096
        have : (n + 1) / 4 = n / 4 := by omega
        rw [this])
      rw [er, ec] at ih
      by_cases h1 : (n + 1) % 4 = 3
      · rw [outsAt0_C m c ⟨n + 1, h⟩ h0 h1]
        dsimp only
        refine (congrFun (Pieces.scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2) (ix2 p q)).trans ?_
        exact next_step (matJ m c) (matE m c) (outsAt0 m c n (Nat.lt_of_succ_lt h)).2 (iblk m c 0 ⟨n + 1, h⟩) (iblk m c 1 ⟨n + 1, h⟩) (rowOf (n + 1) p) (colOf (n + 1) q) p q
          (n % 4) (by omega) ih ((n + 1) % 4) (by omega)
          (fun j hj => left_block_entry m c ⟨n + 1, h⟩ p j hj) (fun j hj => right_block_entry m c ⟨n + 1, h⟩ j q hj)
      · rw [outsAt0_B m c ⟨n + 1, h⟩ h0 h1]
        dsimp only
        refine (congrFun (Pieces.scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2) (ix2 p q)).trans ?_
        exact next_step (matJ m c) (matE m c) (outsAt0 m c n (Nat.lt_of_succ_lt h)).2 (iblk m c 0 ⟨n + 1, h⟩) (iblk m c 1 ⟨n + 1, h⟩) (rowOf (n + 1) p) (colOf (n + 1) q) p q
          (n % 4) (by omega) ih ((n + 1) % 4) (by omega)
          (fun j hj => left_block_entry m c ⟨n + 1, h⟩ p j hj) (fun j hj => right_block_entry m c ⟨n + 1, h⟩ j q hj)

/-- At a last step the output block is a copy of the accumulator. -/
theorem output_eq_accumulator (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.output_C c (grid0.coords t) (ms0_0 t) (hs0_0 t) (ms0_1 t) (hs0_1 t) (ms0_2 t) (hs0_2 t) scM0_0 (Memref.isWhole_whole _) _ _ (iblk m c 0 t) (iblk m c 1 t) _).trans
    (Pieces.scratch_C c (grid0.coords t) (ms0_0 t) (hs0_0 t) (ms0_1 t) (hs0_1 t) (ms0_2 t) (hs0_2 t) scM0_0 (Memref.isWhole_whole _) _ _ (iblk m c 0 t) (iblk m c 1 t) _).symm

/-- So after a last step the output block's entry `(p, q)` is entry `(1024 a + p, 1024 b + q)` of the product. -/
theorem output_entry (c : Dev nD) (t : Fin cfg0.N) (h3 : t.val % 4 = 3) (p q : Fin 1024) :
    (outsAt0 m c t.val t.isLt).1 (ix2 p q) = matProd (matJ m c) (matE m c) (ix2 (rowOf t.val p) (colOf t.val q)) := by
  rw [output_eq_accumulator m c t h3, accumulator_entry m c t.val t.isLt p q, h3]
  exact partialEntry_last _ _ _ _

end Cert.KernelIdeal.Accumulation

end
-- ==== Proof.KernelResult.lean ====
import proofs.«104821_j16303695855981_2_alg».proof.Proof.Accumulation
import Idealize.ShloMosaic.Lib.Pipeline.Value
import Idealize.ShloMosaic.Lib.StableHlo.Run

/-!
# The kernel program returns the flattened matrix product

The output window writes its block back at the last step of each `(a, b)`, when the block holds block `(a, b)` of
`J · E`; the sixteen blocks tile the 4096 × 4096 output, so the output array ends holding `J · E`. The host line after
the kernel lays it out flat, row by row.
-/

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem
open Cert.MatProduct Cert.KernelIdeal.Blocks Cert.KernelIdeal.Accumulation

variable (m : (ℓ : Loc nD τ sig) → Buf (Elt Ideal) ℓ) (ρ : Dev nD → PrngReg)

/-- The product `J · E` as contents of the kernel's output array. -/
def product (c : Dev nD) : Buf (Elt Ideal) ((c : Thread nD τ).loc main_v4) := matProd (matJ m c) (matE m c)

/-- What a last step writes back is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 64 := lt_of_lt_of_eq t.isLt (show cfg0.N = 64 from N_0)
  obtain ⟨-, -, -, -, e0, e1⟩ := block_indices t
  show (cfg0.win 2).cut (grid0.coords t) ((dats m 0 c).after 2 t) = _
  rw [after0_2]
  funext y
  rw [View.read_apply]
  show (outsAt0 m c t.val t.isLt).1 y = matProd (matJ m c) (matE m c) (((cfg0.win 2).blk t).view.emb y)
  have hy0 : (y 0).val < 1024 := (y 0).isLt
  have hy1 : (y 1).val < 1024 := (y 1).isLt
  refine (congrArg ((outsAt0 m c t.val t.isLt).1) (eq_ix2 (n0 := 1024) (n1 := 1024) y)).trans ?_
  refine (output_entry m c t h3 (y 0) (y 1)).trans ?_
  congr 1
  funext a
  apply Fin.ext
  match a with
  | ⟨0, _⟩ => show (1024 * (t.val / 16) + (y 0).val) % 4096 = win0_2.index t (0 : Fin 2) * 1024 + 1 * (y 0).val; omega
  | ⟨1, _⟩ => show (1024 * (t.val / 4 % 4) + (y 1).val) % 4096 = win0_2.index t (1 : Fin 2) * 1024 + 1 * (y 1).val; omega

/-- Entry `(r, s)` of the output lies in the block written back at the last step of `(r / 1024, s / 1024)`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hlt : 16 * ((i 0).val / 1024) + 4 * ((i 1).val / 1024) + 3 < cfg0.N := by
    rw [show cfg0.N = 64 from N_0]; omega
  obtain ⟨-, -, -, -, e0, e1⟩ := block_indices ⟨_, hlt⟩
  have e0' : win0_2.index ⟨_, hlt⟩ (0 : Fin 2) = (16 * ((i 0).val / 1024) + 4 * ((i 1).val / 1024) + 3) / 16 := e0
  have e1' : win0_2.index ⟨_, hlt⟩ (1 : Fin 2) = (16 * ((i 0).val / 1024) + 4 * ((i 1).val / 1024) + 3) / 4 % 4 := e1
  refine ⟨⟨_, hlt⟩, (flush0_2 _).mpr (by show (16 * ((i 0).val / 1024) + 4 * ((i 1).val / 1024) + 3) % 4 = 3; omega), ?_⟩
  show i ∈ ((View.whole main_v4).slice (win0_2.rect ⟨_, hlt⟩)).set
  rw [View.set_slice_whole, Rect.mem_set_unit]
  intro a
  match a with
  | ⟨0, _⟩ => show win0_2.index ⟨_, hlt⟩ (0 : Fin 2) * 1024 ≤ (i 0).val ∧ (i 0).val < win0_2.index ⟨_, hlt⟩ (0 : Fin 2) * 1024 + 1024; omega
  | ⟨1, _⟩ => show win0_2.index ⟨_, hlt⟩ (1 : Fin 2) * 1024 ≤ (i 1).val ∧ (i 1).val < win0_2.index ⟨_, hlt⟩ (1 : Fin 2) * 1024 + 1024; omega

/-- The output array after the run is the product. -/
theorem final (c : Dev nD) : (dats m 0 c).arrAt 2 cfg0.N = product m c :=
  (dats m 0 c).arrAt_eq_of_cover 2 (product m c) (flushed_eq m c) covered

/-- The host line after the kernel lays the product out flat. -/
theorem tail_eq (c : Dev nD) :
    Pipeline.afterTail₀ cfgs (dats m) 0 (V0 m) [hostOps1] c main_v5
      = shapeCast Flat (product m c : Sq.Idx → EReal) Facts₀.shapeCasts_S4096x4096_S16777216 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4) = product m c :=
    (Pipeline.withArrays_arr spec0 launch0.win.arr_inj c _ _ 2).trans (final m c)
  refine Eq.trans (b := shapeCast Flat (Pipeline.withArrays (cfgs 0).spec c (V0 m c) (fun w => (dats m 0 c).arrAt w (cfgs 0).N) (Proc.devRef .tc main_v4) : Sq.Idx → EReal) Facts₀.shapeCasts_S4096x4096_S16777216) rfl ?_
  exact congrArg (fun X : Sq.Idx → EReal => shapeCast Flat X Facts₀.shapeCasts_S4096x4096_S16777216) e

/-- The run: the result is the flattened product of the two matrix arguments, the arguments unchanged. -/
theorem run : θ_run defs (onTc (τ := τ) (main (F := Ideal))) ⟨m, fun _ => 0, ρ⟩ (fun r => ∀ c : Dev nD,
      r.2.mem ((c.tc : Thread nD τ).loc main_v5)
        = flatProd Facts₀.shapeCasts_S16777216_S4096x4096 Facts₀.shapeCasts_S4096x4096_S16777216
            (m ((c.tc : Thread nD τ).loc main_arg7)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_v5 (Pipeline.mem_restRefs_of main_v5 (by decide) (by decide))).trans
        ((tail_eq m c).trans (by unfold product flatProd; rw [matJ_eq, matE_eq]))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.Result

end
-- ==== Proof.RefProduct.lean ====
import proofs.«104821_j16303695855981_2_alg».proof.Proof.Gen.ReferenceIdeal.Run
import proofs.«104821_j16303695855981_2_alg».proof.Proof.Gen.ReferenceIdeal.Read
import proofs.«104821_j16303695855981_2_alg».proof.Proof.MatProduct

/-!
# The reference returns the flattened matrix product

The reference reads its two flat arguments as 4096 × 4096 matrices, contracts the columns of the first against the
rows of the second, and flattens the result. Over the extended reals the contraction at entry `(r, s)` is the sum over
`κ` of `J (r, κ) · E (κ, s)`, which is the product's entry.
-/

noncomputable section

namespace Cert.RefProduct

open Idealize.ShloMosaic Idealize.ShloMosaic.ValueIdx Cert.ReferenceIdeal Cert.MatProduct
open scoped BigOperators

/-- The contraction of the two reshaped arguments is their matrix product, entry by entry. -/
theorem contraction_eq_matProd (x4 x7 : (⟨S16777216, .f32⟩ : BufTy).Contents (Elt Ideal)) :
    Read.val_main_v2 (F := Ideal) x4 x7
      = matProd (Read.val_main_v0 (F := Ideal) x7) (Read.val_main_v1 (F := Ideal) x4) := by
  funext i
  rw [Read.val_main_v2_apply]
  unfold matProd term
  refine Finset.sum_congr rfl fun κ _ => ?_
  have el : Read.lidx_main_v2 i κ = ix2 (i 0) κ :=
    funext fun a => Fin.ext (by match a with | ⟨0, _⟩ => rfl | ⟨1, _⟩ => rfl)
  have er : Read.ridx_main_v2 i κ = ix2 κ (i 1) :=
    funext fun a => Fin.ext (by match a with | ⟨0, _⟩ => rfl | ⟨1, _⟩ => rfl)
  rw [el, er]
  rfl

/-- The reference's result is the flattened product of its two arguments read as matrices. -/
theorem result_eq_flatProd (x4 x7 : (⟨S16777216, .f32⟩ : BufTy).Contents (Elt Ideal)) :
    Read.val_main_v3 (F := Ideal) x4 x7
      = flatProd Facts₀.shapeCasts_S16777216_S4096x4096 Facts₀.shapeCasts_S4096x4096_S16777216 x7 x4 := by
  unfold Read.val_main_v3 flatProd
  rw [contraction_eq_matProd]
  rfl

end Cert.RefProduct

end
-- ==== Proof.lean ====
/-
  The kernel multiplies two 4096 × 4096 matrices, given flat, on a (4, 4, 4) grid of 1024 × 1024 blocks: at grid point
  (a, b, k) it adds the product of block (a, k) of the first factor and block (k, b) of the second to an accumulator that
  is reset at k = 0 and copied to output block (a, b) at k = 3; the result is laid out flat. The reference contracts the
  two matrices in one operation and flattens. Over the extended reals both return the same array: the accumulator's
  order of summation (zero, then four blocks of 1024 terms, one after the other) gives the same sum as the plain sum over
  the 4096 terms, because addition of extended reals is commutative and associative; no entry needs to be finite, and the
  change of float format of the kernel's operands is the identity.

  The three frames are the generated frame runs (the reference's is its generated run with the result dropped), the
  idealization changed nothing, and the value claim joins the kernel's run (KernelResult) and the reference's run
  (RefProduct) at the common specification `MatProduct.flatProd`.
-/
import proofs.«104821_j16303695855981_2_alg».proof.Defs
import proofs.«104821_j16303695855981_2_alg».proof.Proof.Gen.Kernel
import proofs.«104821_j16303695855981_2_alg».proof.Proof.Gen.Kernel.Frame
import proofs.«104821_j16303695855981_2_alg».proof.Proof.Gen.KernelIdeal
import proofs.«104821_j16303695855981_2_alg».proof.Proof.Gen.KernelIdeal.Frame
import proofs.«104821_j16303695855981_2_alg».proof.Proof.Gen.ReferenceIdeal
import proofs.«104821_j16303695855981_2_alg».proof.Proof.Gen.ReferenceIdeal.Run
import proofs.«104821_j16303695855981_2_alg».proof.Proof.Gen.ReferenceIdeal.Read
import proofs.«104821_j16303695855981_2_alg».proof.Proof.Gen.Pre_finite_inputs
import proofs.«104821_j16303695855981_2_alg».proof.Proof.KernelResult
import proofs.«104821_j16303695855981_2_alg».proof.Proof.RefProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the flattened product of the last and the fifth argument read as matrices; the arguments
    agree, so the results are equal. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RefProduct.result_eq_flatProd, (hagree c).2.2.2.2.1,
    (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
